-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100224x116 : Shape := ⟨2, ![100224, 116]⟩
abbrev S2x1000000 : Shape := ⟨2, ![2, 1000000]⟩
abbrev S100224 : Shape := ⟨1, ![100224]⟩
abbrev S116x128 : Shape := ⟨2, ![116, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100224x116 : S_.BroadcastsInDim S100224x116 (![] : Fin 0 → Fin S100224x116.rank)
  reducesTo_S100224x116_S_d0_1 : S100224x116.ReducesTo [0, 1] S_
  h_S_ : 0 < S_.numel
  bcast_S_S116x128 : S_.BroadcastsInDim S116x128 (![] : Fin 0 → Fin S116x128.rank)
  reducesTo_S116x128_S_d0_1 : S116x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x2 .f32) (main_arg12 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S128x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100224x116 .f32) (main_arg1 : IVec S2x1000000 32) (main_arg2 : IVec S100224 32) (main_arg3 : FVec F S116x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S128x2 .f32) (main_arg12 : FVec F S2 .f32) : IVec S_ 1 :=
  let main_v0 : FVec F S100224x116 .f32 := Host.absf main_arg0
  let main_cst : FVec F S_ .f32 := constant S_ .f32 0x7F800000#32
  let main_v1 : FVec F S100224x116 .f32 := broadcastInDim S100224x116 ![] bcast_S_S100224x116 main_cst
  let main_v2 : IVec S100224x116 1 := cmpf .olt main_v0 main_v1
  let main_c : IVec S_ 1 := constantI S_ 1 1#1
  let main_v3 : IVec S_ 1 := (fun x v => Host.reduce IntOp.andi x v reducesTo_S100224x116_S_d0_1 h_S_) main_v2 main_c
  let main_v4 : FVec F S116x128 .f32 := Host.absf main_arg3
  let main_cst_0 : FVec F S_ .f32 := constant S_ .f32 0x7F800000#32
  let main_v5 : FVec F S116x128 .f32 := broadcastInDim S116x128 ![] bcast_S_S116x128 main_cst_0
  let main_v6 : IVec S116x128 1 := cmpf .olt main_v4 main_v5
  let main_c_1 : IVec S_ 1 := constantI S_ 1 1#1
  let main_v7 : IVec S_ 1 := (fun x v => Host.reduce IntOp.andi x v reducesTo_S116x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100224x116 : Shape := ⟨2, ![100224, 116]⟩
abbrev S2x1000000 : Shape := ⟨2, ![2, 1000000]⟩
abbrev S100224 : Shape := ⟨1, ![100224]⟩
abbrev S116x128 : Shape := ⟨2, ![116, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x116 : Shape := ⟨2, ![1000000, 116]⟩
abbrev S1x128 : Shape := ⟨2, ![1, 128]⟩
abbrev S100224x128 : Shape := ⟨2, ![100224, 128]⟩
abbrev S5568x116 : Shape := ⟨2, ![5568, 116]⟩
abbrev S5568x128 : Shape := ⟨2, ![5568, 128]⟩
abbrev S864x128 : Shape := ⟨2, ![864, 128]⟩
abbrev S100224x1 : Shape := ⟨2, ![100224, 1]⟩
abbrev S864 : Shape := ⟨1, ![864]⟩
abbrev S864x1 : Shape := ⟨2, ![864, 1]⟩
abbrev S864x2 : Shape := ⟨2, ![864, 2]⟩
abbrev S1x2 : Shape := ⟨2, ![1, 2]⟩

abbrev nBuf : Space → Nat
  | .hbm => 57
  | .vmem => 14
  | .smem => 0
  | _ => 0

abbrev bufTy : (tb : Table) → Fin (tcTables nBuf tb) → BufTy
  | .hbm, ⟨0, _⟩ => ⟨S100224x116, .f32⟩
  | .hbm, ⟨1, _⟩ => ⟨S2x1000000, .i32⟩
  | .hbm, ⟨2, _⟩ => ⟨S100224, .i32⟩
  | .hbm, ⟨3, _⟩ => ⟨S116x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x116, .f32⟩
  | .hbm, ⟨26, _⟩ => ⟨S_, .f32⟩
  | .hbm, ⟨27, _⟩ => ⟨S100224x116, .f32⟩
  | .hbm, ⟨28, _⟩ => ⟨S1000000x1, .i32⟩
  | .hbm, ⟨29, _⟩ => ⟨S100224x116, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S100224x128, .f32⟩
  | .hbm, ⟨37, _⟩ => ⟨S_, .f32⟩
  | .hbm, ⟨38, _⟩ => ⟨S864x128, .f32⟩
  | .hbm, ⟨39, _⟩ => ⟨S100224x1, .i32⟩
  | .hbm, ⟨40, _⟩ => ⟨S864x128, .f32⟩
  | .hbm, ⟨41, _⟩ => ⟨S_, .f32⟩
  | .hbm, ⟨42, _⟩ => ⟨S100224, .f32⟩
  | .hbm, ⟨43, _⟩ => ⟨S_, .f32⟩
  | .hbm, ⟨44, _⟩ => ⟨S864, .f32⟩
  | .hbm, ⟨45, _⟩ => ⟨S100224x1, .i32⟩
  | .hbm, ⟨46, _⟩ => ⟨S864, .f32⟩
  | .hbm, ⟨47, _⟩ => ⟨S_, .f32⟩
  | .hbm, ⟨48, _⟩ => ⟨S864, .f32⟩
  | .hbm, ⟨49, _⟩ => ⟨S864, .f32⟩
  | .hbm, ⟨50, _⟩ => ⟨S864x1, .f32⟩
  | .hbm, ⟨51, _⟩ => ⟨S864x128, .f32⟩
  | .hbm, ⟨52, _⟩ => ⟨S864x128, .f32⟩
  | .hbm, ⟨53, _⟩ => ⟨S864x2, .f32⟩
  | .hbm, ⟨54, _⟩ => ⟨S1x2, .f32⟩
  | .hbm, ⟨55, _⟩ => ⟨S864x2, .f32⟩
  | .hbm, ⟨56, _⟩ => ⟨S864x2, .f32⟩
  | .local _ .vmem, ⟨0, _⟩ => ⟨S5568x116, .f32⟩
  | .local _ .vmem, ⟨1, _⟩ => ⟨S5568x116, .f32⟩
  | .local _ .vmem, ⟨2, _⟩ => ⟨S5568x116, .f32⟩
  | .local _ .vmem, ⟨3, _⟩ => ⟨S5568x116, .f32⟩
  | .local _ .vmem, ⟨4, _⟩ => ⟨S116x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5568x128, .f32⟩
  | .local _ .vmem, ⟨13, _⟩ => ⟨S5568x128, .f32⟩
  | _, _ => ⟨S100224x116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5568x116 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5568x116 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S116x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5568x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100224x116 : S_.BroadcastsInDim S100224x116 (![] : Fin 0 → Fin S100224x116.rank)
  shapeCasts_S128_S1x128 : S128.ShapeCasts S1x128
  inb_S5568x116_S5568x116_0_0 : ∀ a, (![0, 0] : Fin 2 → Nat) a + S5568x116.size a ≤ S5568x116.size a
  h_S5568x116 : 0 < S5568x116.numel
  shapeCasts_S5568x116_S5568x116 : S5568x116.ShapeCasts S5568x116
  bitsLt_bf16_f32 : FTy.bits .bf16 < FTy.bits .f32
  inb_S116x128_S116x128_0_0 : ∀ a, (![0, 0] : Fin 2 → Nat) a + S116x128.size a ≤ S116x128.size a
  h_S116x128 : 0 < S116x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5568x128 : S1x128.Broadcasts S5568x128
  inb_S128x128_S128x128_0_0 : ∀ a, (![0, 0] : Fin 2 → Nat) a + S128x128.size a ≤ S128x128.size a
  h_S128x128 : 0 < S128x128.numel
  inb_S5568x128_S5568x128_0_0 : ∀ a, (![0, 0] : Fin 2 → Nat) a + S5568x128.size a ≤ S5568x128.size a
  h_S5568x128 : 0 < S5568x128.numel
  bcast_S_S864x128 : S_.BroadcastsInDim S864x128 (![] : Fin 0 → Fin S864x128.rank)
  bcast_S100224_S100224x1_0 : S100224.BroadcastsInDim S100224x1 (![0] : Fin 1 → Fin S100224x1.rank)
  bcast_S_S100224 : S_.BroadcastsInDim S100224 (![] : Fin 0 → Fin S100224.rank)
  bcast_S_S864 : S_.BroadcastsInDim S864 (![] : Fin 0 → Fin S864.rank)
  bcast_S864_S864x1_0 : S864.BroadcastsInDim S864x1 (![0] : Fin 1 → Fin S864x1.rank)
  bcast_S864x1_S864x128_0_1 : S864x1.BroadcastsInDim S864x128 (![0, 1] : Fin 2 → Fin S864x128.rank)
  bcast_S2_S1x2_1 : S2.BroadcastsInDim S1x2 (![1] : Fin 1 → Fin S1x2.rank)
  bcast_S1x2_S864x2_0_1 : S1x2.BroadcastsInDim S864x2 (![0, 1] : Fin 2 → Fin S864x2.rank)
  gather_S100224x116_S1000000x1_S1000000x116_1_0_n_n_0_1_1116_wf : GatherDims.WF S100224x116 S1000000x1 S1000000x116 [1] [0] [] [0] [] 1 ![1, 116]
  scatter_S100224x116_S1000000x1_S1000000x116_1_0_0_1_wf : ScatterDims.WF S100224x116 S1000000x1 S1000000x116 [1] [0] [0] 1
  dot_S5568x116_S116x128_S5568x128_1_0_0_1_n_n_wf : DotDims.WF S5568x116 S116x128 S5568x128 [1] [0] [0] [1] [] []
  dot_S5568x128_S128x128_S5568x128_1_0_0_1_n_n_wf : DotDims.WF S5568x128 S128x128 S5568x128 [1] [0] [0] [1] [] []
  scatter_S864x128_S100224x1_S100224x128_1_0_0_1_wf : ScatterDims.WF S864x128 S100224x1 S100224x128 [1] [0] [0] 1
  scatter_S864_S100224x1_S100224_n_0_0_1_wf : ScatterDims.WF S864 S100224x1 S100224 [] [0] [0] 1
  dot_S864x128_S128x2_S864x2_1_0_0_1_n_n_wf : DotDims.WF S864x128 S128x2 S864x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5568x116.size a ≤ S100224x116.size a
  hwx0_0 : ∀ i : grid0.Coords, EltTy.bits .f32 = 32 ∨ (Rect.block (s := S100224x116) S5568x116.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5568x116.size a ≤ S100224x116.size a
  hwx0_1 : ∀ i : grid0.Coords, EltTy.bits .f32 = 32 ∨ (Rect.block (s := S100224x116) S5568x116.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S116x128.size a ≤ S116x128.size a
  hwx0_2 : ∀ i : grid0.Coords, EltTy.bits .f32 = 32 ∨ (Rect.block (s := S116x128) S116x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5568x128.size a ≤ S100224x128.size a
  hwx0_10 : ∀ i : grid0.Coords, EltTy.bits .f32 = 32 ∨ (Rect.block (s := S100224x128) S5568x128.size (cc0_transform_10 i) (hinb0_10 i)).WholeWords (EltTy.packing .f32)

variable [Facts₀]

def gather_S100224x116_S1000000x1_S1000000x116_1_0_n_n_0_1_1116 : GatherDims S100224x116 S1000000x1 S1000000x116 where
  offsetDims := [1]
  collapsedSliceDims := [0]
  operandBatchingDims := []
  startIndicesBatchingDims := []
  startIndexMap := [0]
  indexVectorDim := 1
  sliceSizes := ![1, 116]
  wf := gather_S100224x116_S1000000x1_S1000000x116_1_0_n_n_0_1_1116_wf
def scatter_S100224x116_S1000000x1_S1000000x116_1_0_0_1 : ScatterDims S100224x116 S1000000x1 S1000000x116 where
  updateWindowDims := [1]
  insertedWindowDims := [0]
  scatterDimsToOperandDims := [0]
  indexVectorDim := 1
  wf := scatter_S100224x116_S1000000x1_S1000000x116_1_0_0_1_wf
def dot_S5568x116_S116x128_S5568x128_1_0_0_1_n_n : DotDims S5568x116 S116x128 S5568x128 where
  lhsContracting := [1]
  rhsContracting := [0]
  lhsNonContracting := [0]
  rhsNonContracting := [1]
  lhsBatch := []
  rhsBatch := []
  wf := dot_S5568x116_S116x128_S5568x128_1_0_0_1_n_n_wf
def dot_S5568x128_S128x128_S5568x128_1_0_0_1_n_n : DotDims S5568x128 S128x128 S5568x128 where
  lhsContracting := [1]
  rhsContracting := [0]
  lhsNonContracting := [0]
  rhsNonContracting := [1]
  lhsBatch := []
  rhsBatch := []
  wf := dot_S5568x128_S128x128_S5568x128_1_0_0_1_n_n_wf
def scatter_S864x128_S100224x1_S100224x128_1_0_0_1 : ScatterDims S864x128 S100224x1 S100224x128 where
  updateWindowDims := [1]
  insertedWindowDims := [0]
  scatterDimsToOperandDims := [0]
  indexVectorDim := 1
  wf := scatter_S864x128_S100224x1_S100224x128_1_0_0_1_wf
def scatter_S864_S100224x1_S100224_n_0_0_1 : ScatterDims S864 S100224x1 S100224 where
  updateWindowDims := []
  insertedWindowDims := [0]
  scatterDimsToOperandDims := [0]
  indexVectorDim := 1
  wf := scatter_S864_S100224x1_S100224_n_0_0_1_wf
def dot_S864x128_S128x2_S864x2_1_0_0_1_n_n : DotDims S864x128 S128x2 S864x2 where
  lhsContracting := [1]
  rhsContracting := [0]
  lhsNonContracting := [0]
  rhsNonContracting := [1]
  lhsBatch := []
  rhsBatch := []
  wf := dot_S864x128_S128x2_S864x2_1_0_0_1_n_n_wf

abbrev win0_0 : Pipeline.Window sig grid0 :=
  Pipeline.Window.ofSpec (Memref.whole main_arg0) S5568x116.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5568x116.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S116x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5568x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100224x116 : Shape := ⟨2, ![100224, 116]⟩
abbrev S2x1000000 : Shape := ⟨2, ![2, 1000000]⟩
abbrev S100224 : Shape := ⟨1, ![100224]⟩
abbrev S116x128 : Shape := ⟨2, ![116, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x116 : Shape := ⟨2, ![1000000, 116]⟩
abbrev S100224x128 : Shape := ⟨2, ![100224, 128]⟩
abbrev S1x128 : Shape := ⟨2, ![1, 128]⟩
abbrev S864x128 : Shape := ⟨2, ![864, 128]⟩
abbrev S100224x1 : Shape := ⟨2, ![100224, 1]⟩
abbrev S864 : Shape := ⟨1, ![864]⟩
abbrev S864x1 : Shape := ⟨2, ![864, 1]⟩
abbrev S864x2 : Shape := ⟨2, ![864, 2]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S100224x116, .f32⟩
  | .hbm, ⟨1, _⟩ => ⟨S2x1000000, .i32⟩
  | .hbm, ⟨2, _⟩ => ⟨S100224, .i32⟩
  | .hbm, ⟨3, _⟩ => ⟨S116x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x116, .f32⟩
  | .hbm, ⟨26, _⟩ => ⟨S_, .f32⟩
  | .hbm, ⟨27, _⟩ => ⟨S100224x116, .f32⟩
  | .hbm, ⟨28, _⟩ => ⟨S1000000x1, .i32⟩
  | .hbm, ⟨29, _⟩ => ⟨S100224x116, .f32⟩
  | .hbm, ⟨30, _⟩ => ⟨S100224x116, .f32⟩
  | .hbm, ⟨31, _⟩ => ⟨S100224x128, .f32⟩
  | .hbm, ⟨32, _⟩ => ⟨S1x128, .f32⟩
  | .hbm, ⟨33, _⟩ => ⟨S100224x128, .f32⟩
  | .hbm, ⟨34, _⟩ => ⟨S100224x128, .f32⟩
  | .hbm, ⟨35, _⟩ => ⟨S_, .f32⟩
  | .hbm, ⟨36, _⟩ => ⟨S100224x128, .f32⟩
  | .hbm, ⟨37, _⟩ => ⟨S100224x128, .f32⟩
  | .hbm, ⟨38, _⟩ => ⟨S100224x128, .f32⟩
  | .hbm, ⟨39, _⟩ => ⟨S1x128, .f32⟩
  | .hbm, ⟨40, _⟩ => ⟨S100224x128, .f32⟩
  | .hbm, ⟨41, _⟩ => ⟨S100224x128, .f32⟩
  | .hbm, ⟨42, _⟩ => ⟨S_, .f32⟩
  | .hbm, ⟨43, _⟩ => ⟨S100224x128, .f32⟩
  | .hbm, ⟨44, _⟩ => ⟨S100224x128, .f32⟩
  | .hbm, ⟨45, _⟩ => ⟨S1x128, .f32⟩
  | .hbm, ⟨46, _⟩ => ⟨S100224x128, .f32⟩
  | .hbm, ⟨47, _⟩ => ⟨S100224x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S100224x128, .f32⟩
  | .hbm, ⟨54, _⟩ => ⟨S100224x128, .f32⟩
  | .hbm, ⟨55, _⟩ => ⟨S1x128, .f32⟩
  | .hbm, ⟨56, _⟩ => ⟨S100224x128, .f32⟩
  | .hbm, ⟨57, _⟩ => ⟨S100224x128, .f32⟩
  | .hbm, ⟨58, _⟩ => ⟨S1x128, .f32⟩
  | .hbm, ⟨59, _⟩ => ⟨S100224x128, .f32⟩
  | .hbm, ⟨60, _⟩ => ⟨S100224x128, .f32⟩
  | .hbm, ⟨61, _⟩ => ⟨S_, .f32⟩
  | .hbm, ⟨62, _⟩ => ⟨S100224x128, .f32⟩
  | .hbm, ⟨63, _⟩ => ⟨S100224x128, .f32⟩
  | .hbm, ⟨64, _⟩ => ⟨S_, .f32⟩
  | .hbm, ⟨65, _⟩ => ⟨S864x128, .f32⟩
  | .hbm, ⟨66, _⟩ => ⟨S100224x1, .i32⟩
  | .hbm, ⟨67, _⟩ => ⟨S864x128, .f32⟩
  | .hbm, ⟨68, _⟩ => ⟨S_, .f32⟩
  | .hbm, ⟨69, _⟩ => ⟨S100224, .f32⟩
  | .hbm, ⟨70, _⟩ => ⟨S_, .f32⟩
  | .hbm, ⟨71, _⟩ => ⟨S864, .f32⟩
  | .hbm, ⟨72, _⟩ => ⟨S100224x1, .i32⟩
  | .hbm, ⟨73, _⟩ => ⟨S864, .f32⟩
  | .hbm, ⟨74, _⟩ => ⟨S_, .f32⟩
  | .hbm, ⟨75, _⟩ => ⟨S864, .f32⟩
  | .hbm, ⟨76, _⟩ => ⟨S864, .f32⟩
  | .hbm, ⟨77, _⟩ => ⟨S864x1, .f32⟩
  | .hbm, ⟨78, _⟩ => ⟨S864x128, .f32⟩
  | .hbm, ⟨79, _⟩ => ⟨S864x128, .f32⟩
  | .hbm, ⟨80, _⟩ => ⟨S864x2, .f32⟩
  | .hbm, ⟨81, _⟩ => ⟨S1x2, .f32⟩
  | .hbm, ⟨82, _⟩ => ⟨S864x2, .f32⟩
  | .hbm, ⟨83, _⟩ => ⟨S864x2, .f32⟩
  | _, _ => ⟨S100224x116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call2_cst : Ref sig .tc := ⟨.hbm, 61, rfl⟩
abbrev main_call2_v0 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100224x116 : S_.BroadcastsInDim S100224x116 (![] : Fin 0 → Fin S100224x116.rank)
  bcast_S128_S1x128_1 : S128.BroadcastsInDim S1x128 (![1] : Fin 1 → Fin S1x128.rank)
  bcast_S1x128_S100224x128_0_1 : S1x128.BroadcastsInDim S100224x128 (![0, 1] : Fin 2 → Fin S100224x128.rank)
  bcast_S_S100224x128 : S_.BroadcastsInDim S100224x128 (![] : Fin 0 → Fin S100224x128.rank)
  bcast_S_S128 : S_.BroadcastsInDim S128 (![] : Fin 0 → Fin S128.rank)
  bcast_S_S864x128 : S_.BroadcastsInDim S864x128 (![] : Fin 0 → Fin S864x128.rank)
  bcast_S100224_S100224x1_0 : S100224.BroadcastsInDim S100224x1 (![0] : Fin 1 → Fin S100224x1.rank)
  bcast_S_S100224 : S_.BroadcastsInDim S100224 (![] : Fin 0 → Fin S100224.rank)
  bcast_S_S864 : S_.BroadcastsInDim S864 (![] : Fin 0 → Fin S864.rank)
  bcast_S864_S864x1_0 : S864.BroadcastsInDim S864x1 (![0] : Fin 1 → Fin S864x1.rank)
  bcast_S864x1_S864x128_0_1 : S864x1.BroadcastsInDim S864x128 (![0, 1] : Fin 2 → Fin S864x128.rank)
  bcast_S2_S1x2_1 : S2.BroadcastsInDim S1x2 (![1] : Fin 1 → Fin S1x2.rank)
  bcast_S1x2_S864x2_0_1 : S1x2.BroadcastsInDim S864x2 (![0, 1] : Fin 2 → Fin S864x2.rank)
  gather_S100224x116_S1000000x1_S1000000x116_1_0_n_n_0_1_1116_wf : GatherDims.WF S100224x116 S1000000x1 S1000000x116 [1] [0] [] [0] [] 1 ![1, 116]
  scatter_S100224x116_S1000000x1_S1000000x116_1_0_0_1_wf : ScatterDims.WF S100224x116 S1000000x1 S1000000x116 [1] [0] [0] 1
  dot_S100224x116_S116x128_S100224x128_1_0_0_1_n_n_wf : DotDims.WF S100224x116 S116x128 S100224x128 [1] [0] [0] [1] [] []
  dot_S100224x128_S128x128_S100224x128_1_0_0_1_n_n_wf : DotDims.WF S100224x128 S128x128 S100224x128 [1] [0] [0] [1] [] []
  scatter_S864x128_S100224x1_S100224x128_1_0_0_1_wf : ScatterDims.WF S864x128 S100224x1 S100224x128 [1] [0] [0] 1
  scatter_S864_S100224x1_S100224_n_0_0_1_wf : ScatterDims.WF S864 S100224x1 S100224 [] [0] [0] 1
  dot_S864x128_S128x2_S864x2_1_0_0_1_n_n_wf : DotDims.WF S864x128 S128x2 S864x2 [1] [0] [0] [1] [] []

variable [Facts₀]

def gather_S100224x116_S1000000x1_S1000000x116_1_0_n_n_0_1_1116 : GatherDims S100224x116 S1000000x1 S1000000x116 where
  offsetDims := [1]
  collapsedSliceDims := [0]
  operandBatchingDims := []
  startIndicesBatchingDims := []
  startIndexMap := [0]
  indexVectorDim := 1
  sliceSizes := ![1, 116]
  wf := gather_S100224x116_S1000000x1_S1000000x116_1_0_n_n_0_1_1116_wf
def scatter_S100224x116_S1000000x1_S1000000x116_1_0_0_1 : ScatterDims S100224x116 S1000000x1 S1000000x116 where
  updateWindowDims := [1]
  insertedWindowDims := [0]
  scatterDimsToOperandDims := [0]
  indexVectorDim := 1
  wf := scatter_S100224x116_S1000000x1_S1000000x116_1_0_0_1_wf
def dot_S100224x116_S116x128_S100224x128_1_0_0_1_n_n : DotDims S100224x116 S116x128 S100224x128 where
  lhsContracting := [1]
  rhsContracting := [0]
  lhsNonContracting := [0]
  rhsNonContracting := [1]
  lhsBatch := []
  rhsBatch := []
  wf := dot_S100224x116_S116x128_S100224x128_1_0_0_1_n_n_wf
def dot_S100224x128_S128x128_S100224x128_1_0_0_1_n_n : DotDims S100224x128 S128x128 S100224x128 where
  lhsContracting := [1]
  rhsContracting := [0]
  lhsNonContracting := [0]
  rhsNonContracting := [1]
  lhsBatch := []
  rhsBatch := []
  wf := dot_S100224x128_S128x128_S100224x128_1_0_0_1_n_n_wf
def scatter_S864x128_S100224x1_S100224x128_1_0_0_1 : ScatterDims S864x128 S100224x1 S100224x128 where
  updateWindowDims := [1]
  insertedWindowDims := [0]
  scatterDimsToOperandDims := [0]
  indexVectorDim := 1
  wf := scatter_S864x128_S100224x1_S100224x128_1_0_0_1_wf
def scatter_S864_S100224x1_S100224_n_0_0_1 : ScatterDims S864 S100224x1 S100224 where
  updateWindowDims := []
  insertedWindowDims := [0]
  scatterDimsToOperandDims := [0]
  indexVectorDim := 1
  wf := scatter_S864_S100224x1_S100224_n_0_0_1_wf
def dot_S864x128_S128x2_S864x2_1_0_0_1_n_n : DotDims S864x128 S128x2 S864x2 where
  lhsContracting := [1]
  rhsContracting := [0]
  lhsNonContracting := [0]
  rhsNonContracting := [1]
  lhsBatch := []
  rhsBatch := []
  wf := dot_S864x128_S128x2_S864x2_1_0_0_1_n_n_wf

class Facts : Prop extends Facts₀ where

variable [Facts]
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«105396_j88648124991293_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibPallasLinear.lean ====
/-
  A dense layer x W + b computed by a tile's body and by host operations, at the ideal instance.

  The body casts its block of x to a narrower format (the identity here), multiplies it into a zero accumulator by the
  weight block, and adds the bias, which it first views as a 1 x N row and repeats down the rows. The host contracts x
  with W and adds the bias broadcast in two steps. Entry (p, q) of either is  ∑ k, x (p, k) · W (k, q)  +  b q,
  whatever the formats of the operands: `affine`. So the two are one array.
-/
import proofs.«105396_j88648124991293_1_alg».proof.Proof.LibRank2

namespace Cert.PallasLinear

open Idealize.ShloMosaic Idealize.ShloMosaic.ValueIdx

/-- Entry (p, q) of x W + b. -/
noncomputable def affine {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

theorem affine_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = (∑ k : Fin K, x (ix2 p k) * w (ix2 k q)) + b (ix1 q) := rfl

/-- The tile body's value at an entry. -/
theorem body_apply {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (hlt : FTy.bf16.bits < FTy.f32.bits)
    (hc1 : (⟨2, ![K, N]⟩ : Shape).ShapeCasts ⟨2, ![K, N]⟩) (hc2 : (⟨1, ![N]⟩ : Shape).ShapeCasts ⟨1, ![N]⟩)
    (hc3 : (⟨1, ![N]⟩ : Shape).ShapeCasts ⟨2, ![1, N]⟩) (hb : (⟨2, ![1, N]⟩ : Shape).Broadcasts ⟨2, ![M, N]⟩)
    (p : Fin M) (q : Fin N) :
    addf (matmul (Cert.MatmulAt.plainDims wf) none (truncf .bf16 x hlt) (shapeCast ⟨2, ![K, N]⟩ w hc1)
          (constant (F := Ideal) ⟨2, ![M, N]⟩ .f32 0x00000000#32))
        (broadcastTo ⟨2, ![M, N]⟩ (shapeCast ⟨2, ![1, N]⟩ (shapeCast ⟨1, ![N]⟩ b hc2) hc3) hb) (ix2 p q)
      = affine x w b (ix2 p q) := by
  rw [affine_apply]
  show matmul _ _ _ _ _ (ix2 p q) + broadcastTo _ _ _ (ix2 p q) = _
  rw [Cert.MatmulAt.matmul_zero_plain_apply wf none _ _ p q, shapeCast_self, shapeCast_self]
  congr 1
  refine (broadcastTo_apply _ hb (ix2 p q) (ix2 (0 : Fin 1) q) fun a => ?_).trans (shapeCast_a_1a_apply b hc3 0 q)
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- The host's dense layer at an entry. -/
theorem host_apply {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) (p : Fin M) (q : Fin N) :
    addf (Host.dotGeneral (Cert.MatmulAt.plainDims wf) none x w)
        (broadcastInDim ⟨2, ![M, N]⟩ ![0, 1] h₂ (broadcastInDim ⟨2, ![1, N]⟩ ![1] h₁ b)) (ix2 p q)
      = affine x w b (ix2 p q) := by
  rw [affine_apply]
  show Host.dotGeneral _ _ _ _ (ix2 p q) + broadcastInDim _ _ _ _ (ix2 p q) = _
  rw [Cert.Rank2.dotGeneral_plain_apply wf none x w p q, Cert.Rank2.rowBias_apply b h₁ h₂ p q]

/-- The host's dense layer is the array `affine`. -/
theorem host_eq {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) :
    addf (Host.dotGeneral (Cert.MatmulAt.plainDims wf) none x w)
        (broadcastInDim ⟨2, ![M, N]⟩ ![0, 1] h₂ (broadcastInDim ⟨2, ![1, N]⟩ ![1] h₁ b))
      = affine x w b := by
  funext j
  obtain ⟨p, q, rfl⟩ : ∃ (p : Fin M) (q : Fin N), j = ix2 p q := ⟨j 0, j 1, eq_ix2 j⟩
  exact host_apply wf x w b h₁ h₂ p q

end Cert.PallasLinear
-- ==== Proof.LibAffineRows.lean ====
/-
  A dense layer x W + b depends, row by row, on the same row of x.

  Entry (p, q) of `Cert.PallasLinear.affine x w b` is  ∑ k, x (p, k) · w (k, q)  +  b q : it reads row p of x and
  nothing else of x. So two inputs — of possibly different heights, such as a whole array and one row block of it — that
  agree along row p of one and row p' of the other give equal entries (p, q) and (p', q) (`affine_row`); the same with
  the two entries given as arbitrary indices whose column coordinates agree (`affine_congr`). This is what lets a
  row-tiled region's blocks be read as the blocks of the whole-array layer.
-/
import proofs.«105396_j88648124991293_1_alg».proof.Proof.LibPallasLinear

noncomputable section

namespace Cert.PallasLinear

open Idealize.ShloMosaic Idealize.ShloMosaic.ValueIdx

/-- Entry (p, q) of x W + b reads row p of x only: two inputs that agree on that row, at row p of one and row p' of
    the other, give the same entry. -/
theorem affine_row {M M' K N : ℕ} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal) (p : Fin M) (p' : Fin M') (q : Fin N)
    (hx : ∀ k : Fin K, x (ix2 p k) = x' (ix2 p' k)) :
    affine x w b (ix2 p q) = affine x' w b (ix2 p' q) := by
  rw [affine_apply, affine_apply]
  congr 1
  exact Finset.sum_congr rfl fun k _ => by rw [hx k]

/-- The same at any two indices: equal column coordinates, and inputs that agree along the two rows. -/
theorem affine_congr {M M' K N : ℕ} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal)
    (i : (⟨2, ![M, N]⟩ : Shape).Idx) (i' : (⟨2, ![M', N]⟩ : Shape).Idx) (hq : (i 1).val = (i' 1).val)
    (hx : ∀ (p : Fin M) (p' : Fin M'), p.val = (i 0).val → p'.val = (i' 0).val → ∀ k : Fin K, x (ix2 p k) = x' (ix2 p' k)) :
    affine x w b i = affine x' w b i' := by
  obtain ⟨p, q, rfl⟩ : ∃ (p : Fin M) (q : Fin N), i = ix2 p q := ⟨i 0, i 1, eq_ix2 i⟩
  obtain ⟨p', q', rfl⟩ : ∃ (p' : Fin M') (q' : Fin N), i' = ix2 p' q' := ⟨i' 0, i' 1, eq_ix2 i'⟩
  have e : q = q' := Fin.ext hq
  subst e
  exact affine_row x x' w b p p' q (hx p p' rfl rfl)

end Cert.PallasLinear

end
-- ==== Proof.Spec.lean ====
/-
  The node update of the graph layer, row by row, as one function of its inputs.

  For a height M, node features x and aggregated neighbour features a (both M x 116), the update of node p is

      h p q = relu ( ( relu ( (relu ((x + a) W1 + b1)) W2 + b2 ) q - mu q ) * rsqrt (var q + eps) * gamma q + beta q )

  with x W + b the dense layer `Cert.PallasLinear.affine`, relu t = max t 0, and the constants kept as the bit patterns
  both programs print (0 and eps = 0x3727C5AC).  Row p of h reads row p of x and of a and nothing else of them, so a row
  block of h computed from the matching row blocks of x and a is that block of h computed from the whole arrays
  (`mlp_congr`).
-/
import proofs.«105396_j88648124991293_1_alg».proof.Proof.LibAffineRows

noncomputable section

namespace Cert.GinMlp

open Idealize.ShloMosaic Idealize.ShloMosaic.ValueIdx Cert.PallasLinear

/-- relu on the extended reals, the zero as both programs print it. -/
def relu0 (t : EReal) : EReal := max t (Ideal.ofBits .f32 0x00000000#32)

/-- Batch normalisation with running statistics, then relu, of one entry. -/
def bnRelu (t mu var g be : EReal) : EReal :=
  max ((t - mu) * Ideal.rsqrt (var + Ideal.ofBits .f32 0x3727C5AC#32) * g + be) (Ideal.ofBits .f32 0x00000000#32)

/-- The first dense layer and its relu: relu ((x + a) W1 + b1). -/
def hidden {M : ℕ} (x a : (⟨2, ![M, 116]⟩ : Shape).Idx → EReal) (W1 : (⟨2, ![116, 128]⟩ : Shape).Idx → EReal)
    (b1 : (⟨1, ![128]⟩ : Shape).Idx → EReal) : (⟨2, ![M, 128]⟩ : Shape).Idx → EReal :=
  fun j => relu0 (affine (fun j' => x j' + a j') W1 b1 j)

/-- The node update on M rows. -/
def mlp {M : ℕ} (x a : (⟨2, ![M, 116]⟩ : Shape).Idx → EReal) (W1 : (⟨2, ![116, 128]⟩ : Shape).Idx → EReal)
    (b1 : (⟨1, ![128]⟩ : Shape).Idx → EReal) (W2 : (⟨2, ![128, 128]⟩ : Shape).Idx → EReal)
    (b2 g be mu var : (⟨1, ![128]⟩ : Shape).Idx → EReal) : (⟨2, ![M, 128]⟩ : Shape).Idx → EReal :=
  fun i => bnRelu (relu0 (affine (hidden x a W1 b1) W2 b2 i)) (mu (ix1 (i 1))) (var (ix1 (i 1))) (g (ix1 (i 1))) (be (ix1 (i 1)))

theorem mlp_apply {M : ℕ} (x a : (⟨2, ![M, 116]⟩ : Shape).Idx → EReal) (W1 : (⟨2, ![116, 128]⟩ : Shape).Idx → EReal)
    (b1 : (⟨1, ![128]⟩ : Shape).Idx → EReal) (W2 : (⟨2, ![128, 128]⟩ : Shape).Idx → EReal)
    (b2 g be mu var : (⟨1, ![128]⟩ : Shape).Idx → EReal) (p : Fin M) (q : Fin 128) :
    mlp x a W1 b1 W2 b2 g be mu var (ix2 p q)
      = bnRelu (relu0 (affine (hidden x a W1 b1) W2 b2 (ix2 p q))) (mu (ix1 q)) (var (ix1 q)) (g (ix1 q)) (be (ix1 q)) := rfl

/-- Row p of the node update reads row p of x and of a only: inputs of two heights that agree along row p of one and
    row p' of the other give equal entries (p, q) and (p', q). -/
theorem mlp_row {M M' : ℕ} (x a : (⟨2, ![M, 116]⟩ : Shape).Idx → EReal) (x' a' : (⟨2, ![M', 116]⟩ : Shape).Idx → EReal)
    (W1 : (⟨2, ![116, 128]⟩ : Shape).Idx → EReal) (b1 : (⟨1, ![128]⟩ : Shape).Idx → EReal)
    (W2 : (⟨2, ![128, 128]⟩ : Shape).Idx → EReal) (b2 g be mu var : (⟨1, ![128]⟩ : Shape).Idx → EReal)
    (p : Fin M) (p' : Fin M') (q : Fin 128)
    (hx : ∀ k : Fin 116, x (ix2 p k) = x' (ix2 p' k)) (ha : ∀ k : Fin 116, a (ix2 p k) = a' (ix2 p' k)) :
    mlp x a W1 b1 W2 b2 g be mu var (ix2 p q) = mlp x' a' W1 b1 W2 b2 g be mu var (ix2 p' q) := by
  rw [mlp_apply, mlp_apply]
  congr 2
  refine affine_row _ _ W2 b2 p p' q fun k => ?_
  show relu0 (affine _ W1 b1 (ix2 p k)) = relu0 (affine _ W1 b1 (ix2 p' k))
  congr 1
  exact affine_row _ _ W1 b1 p p' k fun k' => by rw [hx k', ha k']

/-- The same with every other operand replaced by an equal one: the form in which a block of the update computed from
    the blocks a grid point loads meets the update of the whole arrays. -/
theorem mlp_congr {M M' : ℕ} (x a : (⟨2, ![M, 116]⟩ : Shape).Idx → EReal) (x' a' : (⟨2, ![M', 116]⟩ : Shape).Idx → EReal)
    (W1 W1' : (⟨2, ![116, 128]⟩ : Shape).Idx → EReal) (b1 b1' : (⟨1, ![128]⟩ : Shape).Idx → EReal)
    (W2 W2' : (⟨2, ![128, 128]⟩ : Shape).Idx → EReal) (b2 b2' g g' be be' mu mu' var var' : (⟨1, ![128]⟩ : Shape).Idx → EReal)
    (p : Fin M) (p' : Fin M') (q : Fin 128)
    (hx : ∀ k : Fin 116, x (ix2 p k) = x' (ix2 p' k)) (ha : ∀ k : Fin 116, a (ix2 p k) = a' (ix2 p' k))
    (hW1 : W1 = W1') (hb1 : b1 = b1') (hW2 : W2 = W2') (hb2 : b2 = b2') (hg : g = g') (hbe : be = be')
    (hmu : mu = mu') (hvar : var = var') :
    mlp x a W1 b1 W2 b2 g be mu var (ix2 p q) = mlp x' a' W1' b1' W2' b2' g' be' mu' var' (ix2 p' q) := by
  subst hW1 hb1 hW2 hb2 hg hbe hmu hvar
  exact mlp_row x a x' a' W1 b1 W2 b2 g be mu var p p' q hx ha

end Cert.GinMlp

end
-- ==== Proof.RefMlp.lean ====
/-
  The reference's node update and what follows it, named.

  The reference computes the aggregated features, then on the whole arrays the two dense layers with their relus, the
  batch normalisation and the last relu — the node update `Cert.GinMlp.mlp` at height 100224 of x and the aggregated
  features (`ref_mlp`) —, then pools the updated nodes graph by graph (`pool`: a sum by graph id divided by the
  graph's node count, at least one) and applies the final linear head (`head`).
-/
import proofs.«105396_j88648124991293_1_alg».proof.Proof.Gen.ReferenceIdeal.Read
import proofs.«105396_j88648124991293_1_alg».proof.Proof.Spec

noncomputable section

namespace Cert.ReferenceIdeal.NodeUpdate

open Idealize.ShloMosaic Idealize.ShloMosaic.ValueIdx Cert.PallasLinear Cert.GinMlp
open Cert.ReferenceIdeal Cert.ReferenceIdeal.Gen Cert.ReferenceIdeal.Read

/-- Mean pooling of the updated nodes over the graphs: the sum of the rows of each graph id divided by the graph's node
    count, the count at least one. -/
def pool (h : FVec Ideal S100224x128 .f32) (batch : IVec S100224 32) : FVec Ideal S864x128 .f32 :=
  Host.divf (F := Ideal) (Host.scatterAdd (F := Ideal) scatter_S864x128_S100224x1_S100224x128_1_0_0_1 (val_main_v41 (F := Ideal))
    (val_main_v42 (F := Ideal) batch) h) (val_main_v51 (F := Ideal) batch)

/-- The final linear head on the pooled features. -/
def head (pooled : FVec Ideal S864x128 .f32) (W : FVec Ideal S128x2 .f32) (b : FVec Ideal S2 .f32) : FVec Ideal S864x2 .f32 :=
  addf (F := Ideal) (Host.dotGeneral (F := Ideal) dot_S864x128_S128x2_S864x2_1_0_0_1_n_n none pooled W) (val_main_v55 (F := Ideal) b)

variable (x0 : (⟨S100224x116, .f32⟩ : BufTy).Contents (Elt Ideal)) (x1 : (⟨S2x1000000, .i32⟩ : BufTy).Contents (Elt Ideal))
  (x2 : (⟨S100224, .i32⟩ : BufTy).Contents (Elt Ideal)) (x3 : (⟨S116x128, .f32⟩ : BufTy).Contents (Elt Ideal))
  (x4 : (⟨S128, .f32⟩ : BufTy).Contents (Elt Ideal)) (x5 : (⟨S128x128, .f32⟩ : BufTy).Contents (Elt Ideal))
  (x6 x7 x8 x9 x10 : (⟨S128, .f32⟩ : BufTy).Contents (Elt Ideal)) (x11 : (⟨S128x2, .f32⟩ : BufTy).Contents (Elt Ideal))
  (x12 : (⟨S2, .f32⟩ : BufTy).Contents (Elt Ideal))

/-- The reference's second result is the pooling of its updated nodes. -/
theorem v52_eq : val_main_v52 (F := Ideal) x0 x1 x2 x3 x4 x5 x6 x7 x8 x9 x10
    = pool (val_main_v40 (F := Ideal) x0 x1 x3 x4 x5 x6 x7 x8 x9 x10) x2 := rfl

/-- Its first result is the head of the second. -/
theorem v56_eq : val_main_v56 (F := Ideal) x0 x1 x2 x3 x4 x5 x6 x7 x8 x9 x10 x11 x12
    = head (val_main_v52 (F := Ideal) x0 x1 x2 x3 x4 x5 x6 x7 x8 x9 x10) x11 x12 := rfl

/-- The first dense layer on the whole arrays. -/
theorem v18_eq : val_main_v18 (F := Ideal) x0 x1 x3 x4 = affine (val_main_v14 (F := Ideal) x0 x1) x3 x4 :=
  host_eq dot_S100224x116_S116x128_S100224x128_1_0_0_1_n_n.wf (val_main_v14 (F := Ideal) x0 x1) x3 x4 _ _

theorem v19_eq : val_main_v19 (F := Ideal) x0 x1 x3 x4 = hidden x0 (val_main_v13 (F := Ideal) x0 x1) x3 x4 := by
  funext j
  show max (val_main_v18 (F := Ideal) x0 x1 x3 x4 j) (val_main_call0_v0 (F := Ideal) j) = _
  rw [v18_eq, val_main_call0_v0_apply]
  rfl

/-- The second dense layer on the whole arrays. -/
theorem v23_eq : val_main_v23 (F := Ideal) x0 x1 x3 x4 x5 x6
    = affine (hidden x0 (val_main_v13 (F := Ideal) x0 x1) x3 x4) x5 x6 := by
  rw [← v19_eq]
  exact host_eq dot_S100224x128_S128x128_S100224x128_1_0_0_1_n_n.wf (val_main_v19 (F := Ideal) x0 x1 x3 x4) x5 x6 _ _

/-- The reference's updated nodes are the node update of x and the aggregated features. -/
theorem ref_mlp : val_main_v40 (F := Ideal) x0 x1 x3 x4 x5 x6 x7 x8 x9 x10
    = mlp (M := 100224) x0 (val_main_v13 (F := Ideal) x0 x1) x3 x4 x5 x6 x7 x8 x9 x10 := by
  funext i
  obtain ⟨p, q, rfl⟩ : ∃ (p : Fin 100224) (q : Fin 128), i = ix2 p q := ⟨i 0, i 1, eq_ix2 i⟩
  rw [mlp_apply, ← v23_eq]
  show max ((max (val_main_v23 (F := Ideal) x0 x1 x3 x4 x5 x6 (ix2 p q)) (val_main_call1_v0 (F := Ideal) (ix2 p q))
        - val_main_v26 (F := Ideal) x9 (ix2 p q)) * val_main_v32 (F := Ideal) x10 (ix2 p q)
        * val_main_v35 (F := Ideal) x7 (ix2 p q) + val_main_v38 (F := Ideal) x8 (ix2 p q))
      (val_main_call2_v0 (F := Ideal) (ix2 p q)) = _
  have e26 : val_main_v26 (F := Ideal) x9 (ix2 p q) = x9 (ix1 q) := Cert.Rank2.rowBias_apply x9 _ _ p q
  have e32 : val_main_v32 (F := Ideal) x10 (ix2 p q) = val_main_v30 (F := Ideal) x10 (ix1 q) :=
    Cert.Rank2.rowBias_apply (val_main_v30 (F := Ideal) x10) _ _ p q
  have e35 : val_main_v35 (F := Ideal) x7 (ix2 p q) = x7 (ix1 q) := Cert.Rank2.rowBias_apply x7 _ _ p q
  have e38 : val_main_v38 (F := Ideal) x8 (ix2 p q) = x8 (ix1 q) := Cert.Rank2.rowBias_apply x8 _ _ p q
  have e30 : val_main_v30 (F := Ideal) x10 (ix1 q) = Ideal.rsqrt (x10 (ix1 q) + Ideal.ofBits .f32 0x3727C5AC#32) := by
    show Ideal.rsqrt (x10 (ix1 q) + val_main_v28 (F := Ideal) (ix1 q)) = _
    rw [val_main_v28_apply]
    rfl
  rw [e26, e32, e35, e38, e30, val_main_call1_v0_apply, val_main_call2_v0_apply]
  rfl

end Cert.ReferenceIdeal.NodeUpdate

end
-- ==== Proof.Body.lean ====
/-
  What one grid point of the kernel computes: the node update of its row block.

  The body adds its blocks of x and of the aggregated features, narrows the sum (the identity here), multiplies it into a
  zero accumulator by W1, adds b1 (a 1 x 128 row repeated down the rows), takes relu, does the same with W2 and b2, and
  finishes with the batch normalisation (each statistic a 1 x 128 row repeated down the rows) and a last relu.  Entry
  (p, q) of the result is the node update `Cert.GinMlp.mlp` of the blocks at (p, q), the 1 x 128 rows read as vectors.
-/
import proofs.«105396_j88648124991293_1_alg».proof.Proof.Gen.KernelIdeal.Skeleton
import proofs.«105396_j88648124991293_1_alg».proof.Proof.Spec

noncomputable section

namespace Cert.GinMlp

open Idealize.ShloMosaic Idealize.ShloMosaic.ValueIdx Cert.PallasLinear

/-- A 1 x n array read as a vector. -/
def rowOf {n : ℕ} (v : (⟨2, ![1, n]⟩ : Shape).Idx → EReal) : (⟨1, ![n]⟩ : Shape).Idx → EReal :=
  fun j => v (ix2 (0 : Fin 1) (j 0))

theorem rowOf_apply {n : ℕ} (v : (⟨2, ![1, n]⟩ : Shape).Idx → EReal) (q : Fin n) : rowOf v (ix1 q) = v (ix2 (0 : Fin 1) q) := rfl

/-- A 1 x n row repeated down M rows: entry (p, q) is the row's entry (0, q). -/
theorem rowBcast_apply {α : Type} {M n : ℕ} (v : (⟨2, ![1, n]⟩ : Shape).Idx → α)
    (hb : (⟨2, ![1, n]⟩ : Shape).Broadcasts ⟨2, ![M, n]⟩) (p : Fin M) (q : Fin n) :
    broadcastTo ⟨2, ![M, n]⟩ v hb (ix2 p q) = v (ix2 (0 : Fin 1) q) := by
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- One dense layer of the body at an entry: narrowed operands multiplied into a zero accumulator, plus the bias row
    repeated down the rows. -/
theorem layer_apply {M K N : ℕ} (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ .f32) (b : FVec Ideal ⟨2, ![1, N]⟩ .f32)
    (hlt : FTy.bf16.bits < FTy.f32.bits) (hc : (⟨2, ![1, N]⟩ : Shape).ShapeCasts ⟨2, ![1, N]⟩)
    (hb : (⟨2, ![1, N]⟩ : Shape).Broadcasts ⟨2, ![M, N]⟩) (p : Fin M) (q : Fin N) :
    addf (matmul (Cert.MatmulAt.plainDims wf) none (truncf .bf16 x hlt) (truncf .bf16 w hlt)
          (constant (F := Ideal) ⟨2, ![M, N]⟩ .f32 0x00000000#32))
        (broadcastTo ⟨2, ![M, N]⟩ (shapeCast ⟨2, ![1, N]⟩ b hc) hb) (ix2 p q)
      = affine x w (rowOf b) (ix2 p q) := by
  rw [affine_apply]
  show matmul _ _ _ _ _ (ix2 p q) + broadcastTo _ _ _ (ix2 p q) = _
  rw [Cert.MatmulAt.matmul_zero_plain_apply wf none _ _ p q, Cert.Rank2.rowBias_vec_apply b hc hb p q]
  rfl

/-- The body's arithmetic over blocks of any height M, at an entry. -/
theorem body_apply {M : ℕ}
    (wf1 : DotDims.WF ⟨2, ![M, 116]⟩ ⟨2, ![116, 128]⟩ ⟨2, ![M, 128]⟩ [1] [0] [0] [1] [] [])
    (wf2 : DotDims.WF ⟨2, ![M, 128]⟩ ⟨2, ![128, 128]⟩ ⟨2, ![M, 128]⟩ [1] [0] [0] [1] [] [])
    (x a : FVec Ideal ⟨2, ![M, 116]⟩ .f32) (W1 : FVec Ideal ⟨2, ![116, 128]⟩ .f32) (b1 : FVec Ideal ⟨2, ![1, 128]⟩ .f32)
    (W2 : FVec Ideal ⟨2, ![128, 128]⟩ .f32) (b2 g be mu var : FVec Ideal ⟨2, ![1, 128]⟩ .f32)
    (hlt : FTy.bf16.bits < FTy.f32.bits) (hx : (⟨2, ![M, 116]⟩ : Shape).ShapeCasts ⟨2, ![M, 116]⟩)
    (hc : (⟨2, ![1, 128]⟩ : Shape).ShapeCasts ⟨2, ![1, 128]⟩)
    (hb : (⟨2, ![1, 128]⟩ : Shape).Broadcasts ⟨2, ![M, 128]⟩) (p : Fin M) (q : Fin 128) :
    maximumf
      (addf
        (mulf
          (mulf
            (subf
              (maximumf
                (addf
                  (matmul (Cert.MatmulAt.plainDims wf2) none
                    (truncf .bf16
                      (maximumf
                        (addf
                          (matmul (Cert.MatmulAt.plainDims wf1) none (truncf .bf16 (addf x (shapeCast ⟨2, ![M, 116]⟩ a hx)) hlt)
                            (truncf .bf16 W1 hlt) (constant (F := Ideal) ⟨2, ![M, 128]⟩ .f32 0x00000000#32))
                          (broadcastTo ⟨2, ![M, 128]⟩ (shapeCast ⟨2, ![1, 128]⟩ b1 hc) hb))
                        (broadcast ⟨2, ![M, 128]⟩ (Scalar.ofBits (F := Ideal) .f32 0x00000000#32)))
                      hlt)
                    (truncf .bf16 W2 hlt) (constant (F := Ideal) ⟨2, ![M, 128]⟩ .f32 0x00000000#32))
                  (broadcastTo ⟨2, ![M, 128]⟩ (shapeCast ⟨2, ![1, 128]⟩ b2 hc) hb))
                (broadcast ⟨2, ![M, 128]⟩ (Scalar.ofBits (F := Ideal) .f32 0x00000000#32)))
              (broadcastTo ⟨2, ![M, 128]⟩ (shapeCast ⟨2, ![1, 128]⟩ mu hc) hb))
            (broadcastTo ⟨2, ![M, 128]⟩
              (rsqrt (addf (shapeCast ⟨2, ![1, 128]⟩ var hc)
                (broadcast ⟨2, ![1, 128]⟩ (Scalar.ofBits (F := Ideal) .f32 0x3727C5AC#32)))) hb))
          (broadcastTo ⟨2, ![M, 128]⟩ (shapeCast ⟨2, ![1, 128]⟩ g hc) hb))
        (broadcastTo ⟨2, ![M, 128]⟩ (shapeCast ⟨2, ![1, 128]⟩ be hc) hb))
      (broadcast ⟨2, ![M, 128]⟩ (Scalar.ofBits (F := Ideal) .f32 0x00000000#32)) (ix2 p q)
      = mlp x a W1 (rowOf b1) W2 (rowOf b2) (rowOf g) (rowOf be) (rowOf mu) (rowOf var) (ix2 p q) := by
  rw [mlp_apply]
  -- the first layer, as a whole block
  have h1 : (maximumf
        (addf
          (matmul (Cert.MatmulAt.plainDims wf1) none (truncf .bf16 (addf x (shapeCast ⟨2, ![M, 116]⟩ a hx)) hlt)
            (truncf .bf16 W1 hlt) (constant (F := Ideal) ⟨2, ![M, 128]⟩ .f32 0x00000000#32))
          (broadcastTo ⟨2, ![M, 128]⟩ (shapeCast ⟨2, ![1, 128]⟩ b1 hc) hb))
        (broadcast ⟨2, ![M, 128]⟩ (Scalar.ofBits (F := Ideal) .f32 0x00000000#32)) : FVec Ideal ⟨2, ![M, 128]⟩ .f32)
      = hidden x a W1 (rowOf b1) := by
    funext j
    obtain ⟨p', k, rfl⟩ : ∃ (p' : Fin M) (k : Fin 128), j = ix2 p' k := ⟨j 0, j 1, eq_ix2 j⟩
    rw [maximumf_apply, layer_apply wf1 _ W1 b1 hlt hc hb p' k, shapeCast_self]
    rfl
  rw [h1]
  rw [maximumf_apply, addf_apply, mulf_apply, mulf_apply, subf_apply, maximumf_apply, layer_apply wf2 _ W2 b2 hlt hc hb p q, Cert.Rank2.rowBias_vec_apply mu hc hb p q,
    Cert.Rank2.rowBias_vec_apply g hc hb p q, Cert.Rank2.rowBias_vec_apply be hc hb p q, rowBcast_apply _ hb p q,
    shapeCast_self]
  rfl

open Cert.KernelIdeal in
/-- The kernel body's stored value, from its loaded blocks, at an entry of the block. -/
theorem pay_apply (x0 x1 : Vec Ideal S5568x116 .f32) (x2 : Vec Ideal S116x128 .f32) (x3 : Vec Ideal S1x128 .f32)
    (x4 : Vec Ideal S128x128 .f32) (x5 x6 x7 x8 x9 : Vec Ideal S1x128 .f32) (p : Fin 5568) (q : Fin 128) :
    Cert.KernelIdeal.Gen.k0_pay1 (Cert.KernelIdeal.Gen.k0_pay2 x0 x1 x2 x3 x4 x5 x8 x9) x6 x7 (ix2 p q)
      = mlp (M := 5568) x0 x1 x2 (rowOf x3) x4 (rowOf x5) (rowOf x6) (rowOf x7) (rowOf x8) (rowOf x9) (ix2 p q) := by
  unfold Cert.KernelIdeal.Gen.k0_pay1 Cert.KernelIdeal.Gen.k0_pay2
  exact body_apply (M := 5568) _ _ x0 x1 x2 x3 x4 x5 x6 x7 x8 x9 _ _ _ _ p q

end Cert.GinMlp

end
-- ==== Proof.KernelArray.lean ====
/-
  The array the region leaves: the node update of the whole arrays.

  Grid point t reads rows [5568 t, 5568 (t + 1)) of x and of the aggregated features, all of every weight, bias and
  statistic, and writes the same rows of the result.  Because row p of the node update reads row p of its two tall inputs
  only, what point t writes back is rows [5568 t, 5568 (t + 1)) of the node update of the WHOLE arrays; the eighteen row
  blocks cover the 100224 rows, so the array ends as that function.
-/
import proofs.«105396_j88648124991293_1_alg».proof.Proof.Gen.KernelIdeal.Frame
import proofs.«105396_j88648124991293_1_alg».proof.Proof.Body
import Idealize.ShloMosaic.Lib.Pipeline.Value
import Idealize.ShloMosaic.Lib.ValueLayout

set_option maxRecDepth 16384

noncomputable section

namespace Cert.KernelIdeal.NodeUpdate

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinMlp

variable (m : (ℓ : Loc nD τ sig) → Buf (Elt Ideal) ℓ) (ρ : Dev nD → PrngReg)

theorem hz : (![0, 0] : Fin 2 → Nat) = fun _ => 0 := funext fun a => by fin_cases a <;> rfl

/-- The node update of the arrays as the region finds them. -/
def G (c : Dev nD) : S100224x128.Idx → EReal :=
  mlp (M := 100224) (V m c main_arg0) (V m c main_v13) (V m c main_arg3) (rowOf (V m c main_v14)) (V m c main_arg5)
    (rowOf (V m c main_v15)) (rowOf (V m c main_v16)) (rowOf (V m c main_v17)) (rowOf (V m c main_v18))
    (rowOf (V m c main_v19))

/-- The printed index maps over the grid: the two tall inputs move with the output, row block by row block; every
    other window stays at its one block. -/
theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_10.index t (1 : Fin 2) = 0 ∧ win0_10.index t (0 : Fin 2) ≤ 17 :=
  (by decide +kernel : ∀ t : Fin grid0.N, _)

theorem idx_small : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Every row block is some point's. -/
theorem idx_onto : ∀ q0 : Fin 18, ∃ t : Fin cfg0.N, win0_10.index t = ![q0.val, 0] :=
  (by decide +kernel : ∀ q0 : Fin 18, ∃ t : Fin grid0.N, win0_10.index t = ![q0.val, 0])

/-! Each small window's one block is its whole array. -/

theorem blk2 (c : Dev nD) (t : Fin cfg0.N) : (iblk m c 2 t : S116x128.Idx → EReal) = V m c main_arg3 := by
  obtain ⟨h2, h3, h4, h5, h6, h7, h8, h9⟩ := idx_small t
  funext y
  show V m c main_arg3 (((cfg0.win 2).blk t).view.emb y) = V m c main_arg3 y
  congr 1
  funext a; apply Fin.ext
  match a with
  | ⟨0, _⟩ => show win0_2.index t (0 : Fin 2) * 116 + 1 * (y 0).val = (y 0).val; omega
  | ⟨1, _⟩ => show win0_2.index t (1 : Fin 2) * 128 + 1 * (y 1).val = (y 1).val; omega

theorem blk3 (c : Dev nD) (t : Fin cfg0.N) : (iblk m c 3 t : S1x128.Idx → EReal) = V m c main_v14 := by
  obtain ⟨h2, h3, h4, h5, h6, h7, h8, h9⟩ := idx_small t
  funext y
  show V m c main_v14 (((cfg0.win 3).blk t).view.emb y) = V m c main_v14 y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blk4 (c : Dev nD) (t : Fin cfg0.N) : (iblk m c 4 t : S128x128.Idx → EReal) = V m c main_arg5 := by
  obtain ⟨h2, h3, h4, h5, h6, h7, h8, h9⟩ := idx_small t
  funext y
  show V m c main_arg5 (((cfg0.win 4).blk t).view.emb y) = V m c main_arg5 y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem blk5 (c : Dev nD) (t : Fin cfg0.N) : (iblk m c 5 t : S1x128.Idx → EReal) = V m c main_v15 := by
  obtain ⟨h2, h3, h4, h5, h6, h7, h8, h9⟩ := idx_small t
  funext y
  show V m c main_v15 (((cfg0.win 5).blk t).view.emb y) = V m c main_v15 y
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blk6 (c : Dev nD) (t : Fin cfg0.N) : (iblk m c 6 t : S1x128.Idx → EReal) = V m c main_v16 := by
  obtain ⟨h2, h3, h4, h5, h6, h7, h8, h9⟩ := idx_small t
  funext y
  show V m c main_v16 (((cfg0.win 6).blk t).view.emb y) = V m c main_v16 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk7 (c : Dev nD) (t : Fin cfg0.N) : (iblk m c 7 t : S1x128.Idx → EReal) = V m c main_v17 := by
  obtain ⟨h2, h3, h4, h5, h6, h7, h8, h9⟩ := idx_small t
  funext y
  show V m c main_v17 (((cfg0.win 7).blk t).view.emb y) = V m c main_v17 y
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk8 (c : Dev nD) (t : Fin cfg0.N) : (iblk m c 8 t : S1x128.Idx → EReal) = V m c main_v18 := by
  obtain ⟨h2, h3, h4, h5, h6, h7, h8, h9⟩ := idx_small t
  funext y
  show V m c main_v18 (((cfg0.win 8).blk t).view.emb y) = V m c main_v18 y
  congr 1
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9 (c : Dev nD) (t : Fin cfg0.N) : (iblk m c 9 t : S1x128.Idx → EReal) = V m c main_v19 := by
  obtain ⟨h2, h3, h4, h5, h6, h7, h8, h9⟩ := idx_small t
  funext y
  show V m c main_v19 (((cfg0.win 9).blk t).view.emb y) = V m c main_v19 y
  congr 1
  funext a; apply Fin.ext
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Row p of window 0's block at point t is row 5568 t + p of its array, whatever the array holds. -/
theorem rows0 (A : S100224x116.Idx → EReal) (t : Fin cfg0.N) (p : Fin 5568) (k : Fin 116)
    (hrow : win0_10.index t (0 : Fin 2) * 5568 + p.val < 100224) :
    ((cfg0.win 0).blk t).view.read (Elt Ideal) A (ix2 p k)
      = A (ix2 (⟨win0_10.index t (0 : Fin 2) * 5568 + p.val, hrow⟩ : Fin 100224) k) := by
  obtain ⟨e0, e0', e1, e1', e10, hle⟩ := idx_facts t
  show A (((cfg0.win 0).blk t).view.emb (ix2 p k)) = _
  have h : ((cfg0.win 0).blk t).view.emb (ix2 p k)
      = ix2 (⟨win0_10.index t (0 : Fin 2) * 5568 + p.val, hrow⟩ : Fin 100224) k := by
    funext a; apply Fin.ext
    match a with
    | ⟨0, _⟩ => show win0_0.index t (0 : Fin 2) * 5568 + 1 * p.val = win0_10.index t (0 : Fin 2) * 5568 + p.val; omega
    | ⟨1, _⟩ => show win0_0.index t (1 : Fin 2) * 116 + 1 * k.val = k.val; omega
  rw [h]

/-- Row p of window 1's block at point t is row 5568 t + p of its array, whatever the array holds. -/
theorem rows1 (A : S100224x116.Idx → EReal) (t : Fin cfg0.N) (p : Fin 5568) (k : Fin 116)
    (hrow : win0_10.index t (0 : Fin 2) * 5568 + p.val < 100224) :
    ((cfg0.win 1).blk t).view.read (Elt Ideal) A (ix2 p k)
      = A (ix2 (⟨win0_10.index t (0 : Fin 2) * 5568 + p.val, hrow⟩ : Fin 100224) k) := by
  obtain ⟨e0, e0', e1, e1', e10, hle⟩ := idx_facts t
  show A (((cfg0.win 1).blk t).view.emb (ix2 p k)) = _
  have h : ((cfg0.win 1).blk t).view.emb (ix2 p k)
      = ix2 (⟨win0_10.index t (0 : Fin 2) * 5568 + p.val, hrow⟩ : Fin 100224) k := by
    funext a; apply Fin.ext
    match a with
    | ⟨0, _⟩ => show win0_1.index t (0 : Fin 2) * 5568 + 1 * p.val = win0_10.index t (0 : Fin 2) * 5568 + p.val; omega
    | ⟨1, _⟩ => show win0_1.index t (1 : Fin 2) * 116 + 1 * k.val = k.val; omega
  rw [h]

/-- WHAT POINT t WRITES BACK is block t of the node update of the whole arrays. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  unfold out0_10
  rw [View.canon_unit_zero hz]
  simp only [View.ld_unit_zero (S := S5568x116) hz, View.ld_unit_zero (S := S116x128) hz,
    View.ld_unit_zero (S := S1x128) hz, View.ld_unit_zero (S := S128x128) hz]
  funext j
  obtain ⟨p, q, rfl⟩ : ∃ (p : Fin 5568) (q : Fin 128), j = ix2 p q := ⟨j 0, j 1, eq_ix2 j⟩
  show k0_pay1 (k0_pay2 (iblk m c 0 t) (iblk m c 1 t) (iblk m c 2 t) (iblk m c 3 t) (iblk m c 4 t) (iblk m c 5 t)
        (iblk m c 8 t) (iblk m c 9 t)) (iblk m c 6 t) (iblk m c 7 t) (ix2 p q)
      = G m c (((cfg0.win 10).blk t).view.emb (ix2 p q))
  refine (pay_apply (iblk m c 0 t) (iblk m c 1 t) (iblk m c 2 t) (iblk m c 3 t) (iblk m c 4 t) (iblk m c 5 t)
    (iblk m c 6 t) (iblk m c 7 t) (iblk m c 8 t) (iblk m c 9 t) p q).trans ?_
  obtain ⟨e0, e0', e1, e1', e10, hle⟩ := idx_facts t
  have hp : p.val < 5568 := p.isLt
  have hrow : win0_10.index t (0 : Fin 2) * 5568 + p.val < 100224 := by omega
  have he : ((cfg0.win 10).blk t).view.emb (ix2 p q)
      = ix2 (⟨win0_10.index t (0 : Fin 2) * 5568 + p.val, hrow⟩ : Fin 100224) q := by
    funext a; apply Fin.ext
    match a with
    | ⟨0, _⟩ => show win0_10.index t (0 : Fin 2) * 5568 + 1 * p.val = win0_10.index t (0 : Fin 2) * 5568 + p.val; omega
    | ⟨1, _⟩ => show win0_10.index t (1 : Fin 2) * 128 + 1 * q.val = q.val; omega
  rw [he]
  unfold G
  refine mlp_congr (M := 5568) (M' := 100224) (iblk m c 0 t) (iblk m c 1 t) (V m c main_arg0) (V m c main_v13)
    (iblk m c 2 t) (V m c main_arg3) (rowOf (iblk m c 3 t)) (rowOf (V m c main_v14)) (iblk m c 4 t) (V m c main_arg5)
    (rowOf (iblk m c 5 t)) (rowOf (V m c main_v15)) (rowOf (iblk m c 6 t)) (rowOf (V m c main_v16))
    (rowOf (iblk m c 7 t)) (rowOf (V m c main_v17)) (rowOf (iblk m c 8 t)) (rowOf (V m c main_v18))
    (rowOf (iblk m c 9 t)) (rowOf (V m c main_v19)) p ⟨_, hrow⟩ q (fun k => ?_) (fun k => ?_)
    (blk2 m c t) (congrArg rowOf (blk3 m c t)) (blk4 m c t) (congrArg rowOf (blk5 m c t)) (congrArg rowOf (blk6 m c t))
    (congrArg rowOf (blk7 m c t)) (congrArg rowOf (blk8 m c t)) (congrArg rowOf (blk9 m c t))
  · exact rows0 (V m c main_arg0) t p k hrow
  · exact rows1 (V m c main_v13) t p k hrow

/-- An index of the array is in point t's block iff each coordinate is in the block's range on its axis. -/
theorem mem_blk (t : Fin cfg0.N) (i : S100224x128.Idx) :
    i ∈ ((cfg0.win 10).blk t).view.set ↔ ∀ a : Fin 2, win0_10.index t a * S5568x128.size a ≤ (i a).val
      ∧ (i a).val < win0_10.index t a * S5568x128.size a + S5568x128.size a := by
  show i ∈ ((View.whole main_v20).slice (win0_10.rect t)).set ↔ _
  rw [View.set_slice_whole, Rect.mem_set_unit]
  exact Iff.rfl

/-- The eighteen row blocks cover the array: row r is in the block of point r / 5568. -/
theorem cover (i : S100224x128.Idx) :
    ∃ t : Fin cfg0.N, (cfg0.win 10).flush t = true ∧ i ∈ ((cfg0.win 10).blk t).view.set := by
  have hi0 : (i 0).val < 100224 := (i 0).isLt
  have hi1 : (i 1).val < 128 := (i 1).isLt
  obtain ⟨t, ht⟩ := idx_onto ⟨(i 0).val / 5568, by omega⟩
  have q0 : win0_10.index t (0 : Fin 2) = (i 0).val / 5568 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 5568 ≤ (i 0).val ∧ (i 0).val < win0_10.index t (0 : Fin 2) * 5568 + 5568
    omega
  | ⟨1, _⟩ =>
    show win0_10.index t (1 : Fin 2) * 128 ≤ (i 1).val ∧ (i 1).val < win0_10.index t (1 : Fin 2) * 128 + 128
    omega

/-- THE ARRAY after the region: the node update of the arrays as the region finds them. -/
theorem final (c : Dev nD) : (dats m 0 c).arrAt 10 cfg0.N = G m c :=
  (dats m 0 c).arrAt_eq_of_cover 10 (G m c) (fun t _ => flushed_eq m c t) cover

end Cert.KernelIdeal.NodeUpdate

end
-- ==== Proof.KernelHost.lean ====
/-
  The kernel program's host lines, read.

  Before the region the host computes the aggregated features (a gather of the source rows and a sum of them into the
  destination rows) and views each bias and each batch-norm statistic as a 1 x 128 row; after it, it pools the updated
  nodes over the graphs and applies the linear head.  The lines before and after the region are, operation by operation,
  the reference's own first and last lines, so what they hold is stated with the reference's stages.
-/
import proofs.«105396_j88648124991293_1_alg».proof.Proof.Gen.KernelIdeal.Frame
import proofs.«105396_j88648124991293_1_alg».proof.Proof.RefMlp
import Idealize.ShloMosaic.Lib.StableHlo.Run

set_option maxRecDepth 16384

noncomputable section

namespace Cert.KernelIdeal.HostLines

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The region finds the aggregated features where the reference computes them. -/
theorem V_v13 (c : Dev nD) : V m c main_v13 = Cert.ReferenceIdeal.Read.val_main_v13 (F := Ideal)
    (m ((c : Thread nD τ).loc main_arg0)) (m ((c : Thread nD τ).loc main_arg1)) := by
  show StableHlo.after hostOps0 (fun b => m (c, b)) (Proc.devRef .tc main_v13) = _
  after_results
  rfl

/-- Each bias and statistic reaches the region as a 1 x 128 row. -/
theorem V_v14 (c : Dev nD) : V m c main_v14 = shapeCast S1x128 (m ((c : Thread nD τ).loc main_arg4)) shapeCasts_S128_S1x128 := by
  show StableHlo.after hostOps0 (fun b => m (c, b)) (Proc.devRef .tc main_v14) = _
  after_results
  rfl

theorem V_v15 (c : Dev nD) : V m c main_v15 = shapeCast S1x128 (m ((c : Thread nD τ).loc main_arg6)) shapeCasts_S128_S1x128 := by
  show StableHlo.after hostOps0 (fun b => m (c, b)) (Proc.devRef .tc main_v15) = _
  after_results
  rfl

theorem V_v16 (c : Dev nD) : V m c main_v16 = shapeCast S1x128 (m ((c : Thread nD τ).loc main_arg7)) shapeCasts_S128_S1x128 := by
  show StableHlo.after hostOps0 (fun b => m (c, b)) (Proc.devRef .tc main_v16) = _
  after_results
  rfl

theorem V_v17 (c : Dev nD) : V m c main_v17 = shapeCast S1x128 (m ((c : Thread nD τ).loc main_arg8)) shapeCasts_S128_S1x128 := by
  show StableHlo.after hostOps0 (fun b => m (c, b)) (Proc.devRef .tc main_v17) = _
  after_results
  rfl

theorem V_v18 (c : Dev nD) : V m c main_v18 = shapeCast S1x128 (m ((c : Thread nD τ).loc main_arg9)) shapeCasts_S128_S1x128 := by
  show StableHlo.after hostOps0 (fun b => m (c, b)) (Proc.devRef .tc main_v18) = _
  after_results
  rfl

theorem V_v19 (c : Dev nD) : V m c main_v19 = shapeCast S1x128 (m ((c : Thread nD τ).loc main_arg10)) shapeCasts_S128_S1x128 := by
  show StableHlo.after hostOps0 (fun b => m (c, b)) (Proc.devRef .tc main_v19) = _
  after_results
  rfl

set_option maxHeartbeats 2000000 in
/-- The second result, after the lines that follow the region: the pooling of the array the region leaves. -/
theorem tail_v32 (c : Dev nD) : Pipeline.afterTail₀ cfgs (dats m) 0 (V0 m) [hostOps1] c main_v32
    = Cert.ReferenceIdeal.NodeUpdate.pool ((dats m 0 c).arrAt 10 cfg0.N) (m ((c : Thread nD τ).loc main_arg2)) := by
  unfold Pipeline.afterTail₀
  simp only [List.flatten_cons, List.flatten_nil, List.append_nil]
  after_results
  rw [Pipeline.withArrays_arr spec0 launch0.win.arr_inj c _ _ 10,
    Pipeline.withArrays_of_ne _ c (V0 m c) _ main_arg2 (by exact (by decide : ∀ w, Pipeline.arrRef spec0 w ≠ main_arg2)),
    show V0 m c (Proc.devRef .tc main_arg2) = m ((c : Thread nD τ).loc main_arg2) from V_main_arg2 m c]
  rfl

set_option maxHeartbeats 2000000 in
/-- The first result: the linear head of the second. -/
theorem tail_v36 (c : Dev nD) : Pipeline.afterTail₀ cfgs (dats m) 0 (V0 m) [hostOps1] c main_v36
    = Cert.ReferenceIdeal.NodeUpdate.head
        (Cert.ReferenceIdeal.NodeUpdate.pool ((dats m 0 c).arrAt 10 cfg0.N) (m ((c : Thread nD τ).loc main_arg2)))
        (m ((c : Thread nD τ).loc main_arg11)) (m ((c : Thread nD τ).loc main_arg12)) := by
  unfold Pipeline.afterTail₀
  simp only [List.flatten_cons, List.flatten_nil, List.append_nil]
  after_results
  rw [Pipeline.withArrays_arr spec0 launch0.win.arr_inj c _ _ 10,
    Pipeline.withArrays_of_ne _ c (V0 m c) _ main_arg2 (by exact (by decide : ∀ w, Pipeline.arrRef spec0 w ≠ main_arg2)),
    Pipeline.withArrays_of_ne _ c (V0 m c) _ main_arg11 (by exact (by decide : ∀ w, Pipeline.arrRef spec0 w ≠ main_arg11)),
    Pipeline.withArrays_of_ne _ c (V0 m c) _ main_arg12 (by exact (by decide : ∀ w, Pipeline.arrRef spec0 w ≠ main_arg12)),
    show V0 m c (Proc.devRef .tc main_arg2) = m ((c : Thread nD τ).loc main_arg2) from V_main_arg2 m c,
    show V0 m c (Proc.devRef .tc main_arg11) = m ((c : Thread nD τ).loc main_arg11) from V_main_arg11 m c,
    show V0 m c (Proc.devRef .tc main_arg12) = m ((c : Thread nD τ).loc main_arg12) from V_main_arg12 m c]
  rfl

end Cert.KernelIdeal.HostLines

end
-- ==== Proof.KernelRun.lean ====
/-
  The kernel program's run, read: its two results as functions of its arguments.

  The region leaves the node update of x and the aggregated features (the arrays as the region finds them are the
  arguments, the aggregated features, and the biases and statistics viewed as 1 x 128 rows, which read back as the
  vectors they came from); the lines after the region pool it over the graphs and apply the linear head.
-/
import proofs.«105396_j88648124991293_1_alg».proof.Proof.KernelArray
import proofs.«105396_j88648124991293_1_alg».proof.Proof.KernelHost

set_option maxRecDepth 16384

noncomputable section

namespace Cert.GinMlp

open Idealize.ShloMosaic Idealize.ShloMosaic.ValueIdx

/-- A vector viewed as a 1 x n row and read back as a vector is the vector. -/
theorem rowOf_shapeCast {n : ℕ} (b : (⟨1, ![n]⟩ : Shape).Idx → EReal) (h : (⟨1, ![n]⟩ : Shape).ShapeCasts ⟨2, ![1, n]⟩) :
    rowOf (shapeCast ⟨2, ![1, n]⟩ b h) = b := by
  funext j
  obtain ⟨q, rfl⟩ : ∃ q : Fin n, j = ix1 q := ⟨j 0, eq_ix1 j⟩
  exact shapeCast_a_1a_apply b h 0 q

/-- The node update of equal operands. -/
theorem mlp_ext {M : ℕ} {x x' a a' : (⟨2, ![M, 116]⟩ : Shape).Idx → EReal} {W1 W1' : (⟨2, ![116, 128]⟩ : Shape).Idx → EReal}
    {b1 b1' : (⟨1, ![128]⟩ : Shape).Idx → EReal} {W2 W2' : (⟨2, ![128, 128]⟩ : Shape).Idx → EReal}
    {b2 b2' g g' be be' mu mu' var var' : (⟨1, ![128]⟩ : Shape).Idx → EReal}
    (hx : x = x') (ha : a = a') (hW1 : W1 = W1') (hb1 : b1 = b1') (hW2 : W2 = W2') (hb2 : b2 = b2') (hg : g = g')
    (hbe : be = be') (hmu : mu = mu') (hvar : var = var') :
    mlp x a W1 b1 W2 b2 g be mu var = mlp x' a' W1' b1' W2' b2' g' be' mu' var' := by
  subst hx ha hW1 hb1 hW2 hb2 hg hbe hmu hvar
  rfl

end Cert.GinMlp

namespace Cert.KernelIdeal.NodeUpdate

open Idealize.ShloMosaic Idealize.ShloMosaic.TcCoe Idealize.ShloMosaic.ValueIdx Idealize.SL.Sem
open Cert.KernelIdeal Cert.KernelIdeal.Gen Cert.KernelIdeal.HostLines Cert.GinMlp

variable (m : (ℓ : Loc nD τ sig) → Buf (Elt Ideal) ℓ) (ρ : Dev nD → PrngReg)

/-- The updated nodes as a function of the arguments. -/
def updated (c : Dev nD) : S100224x128.Idx → EReal :=
  mlp (M := 100224) (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The array the region leaves is the updated nodes. -/
theorem G_eq (c : Dev nD) : G m c = updated m c :=
  mlp_ext (V_main_arg0 m c) (V_v13 m c) (V_main_arg3 m c)
    ((congrArg rowOf (V_v14 m c)).trans (rowOf_shapeCast _ _)) (V_main_arg5 m c)
    ((congrArg rowOf (V_v15 m c)).trans (rowOf_shapeCast _ _)) ((congrArg rowOf (V_v16 m c)).trans (rowOf_shapeCast _ _))
    ((congrArg rowOf (V_v17 m c)).trans (rowOf_shapeCast _ _)) ((congrArg rowOf (V_v18 m c)).trans (rowOf_shapeCast _ _))
    ((congrArg rowOf (V_v19 m c)).trans (rowOf_shapeCast _ _))

/-- THE RUN, read: every weakly fair execution ends with the two results at the head and the pooling of the updated nodes,
    the arguments unchanged. -/
theorem run : θ_run defs (onTc (τ := τ) (main (F := Ideal))) ⟨m, fun _ => 0, ρ⟩ fun r => ∀ c : Dev nD,
      r.2.mem ((c : Thread nD τ).loc main_v36) = Cert.ReferenceIdeal.NodeUpdate.head
          (Cert.ReferenceIdeal.NodeUpdate.pool (updated m c) (m ((c : Thread nD τ).loc main_arg2))) (m ((c : Thread nD τ).loc main_arg11)) (m ((c : Thread nD τ).loc main_arg12))
      ∧ r.2.mem ((c : Thread nD τ).loc main_v32) = Cert.ReferenceIdeal.NodeUpdate.pool (updated m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨
      ((h c).2 main_v36 (Pipeline.mem_restRefs_of main_v36 (by decide) (by decide))).trans
        ((tail_v36 m c).trans (by rw [final m c, G_eq m c])),
      ((h c).2 main_v32 (Pipeline.mem_restRefs_of main_v32 (by decide) (by decide))).trans
        ((tail_v32 m c).trans (by rw [final m c, G_eq m c])),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans ((((dats m) 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans ((((dats m) 0 c).arrAt_in 4 rfl _).trans ((A_eq m c 4).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.NodeUpdate

end
-- ==== Proof.lean ====
/-
  A graph-isomorphism layer with mean pooling and a linear head, computed two ways.

  Both programs first aggregate, for every node, the features of its in-neighbours (a gather of the source rows summed
  into the destination rows), and both end by pooling the updated nodes over the graphs (a sum by graph id divided by the
  node count, at least one) and applying a linear head.  In between, the reference updates all 100224 nodes at once —
  h = relu (bn (relu (relu ((x + agg) W1 + b1) W2 + b2))) with host operations — while the kernel does it in eighteen
  blocks of 5568 rows, each block by two matrix products into zero accumulators with narrowed operands.  Over the
  extended reals narrowing is the identity and a product into a zero accumulator is the plain sum of products, and row p
  of the update reads only row p of x and of agg, so the eighteen blocks are the rows of the one whole-array update
  (`Cert.GinMlp.mlp`).  The first and last host lines of the two programs are the same operations, so the two results —
  the head's output and the pooled features — are equal.  No algebraic law beyond that is used: the inputs' finiteness is
  never opened.
-/
import proofs.«105396_j88648124991293_1_alg».proof.Defs
import proofs.«105396_j88648124991293_1_alg».proof.Proof.Gen.Kernel
import proofs.«105396_j88648124991293_1_alg».proof.Proof.Gen.Kernel.Skeleton
import proofs.«105396_j88648124991293_1_alg».proof.Proof.Gen.Kernel.Launch
import proofs.«105396_j88648124991293_1_alg».proof.Proof.Gen.Kernel.Points
import proofs.«105396_j88648124991293_1_alg».proof.Proof.Gen.Kernel.Frame
import proofs.«105396_j88648124991293_1_alg».proof.Proof.Gen.KernelIdeal
import proofs.«105396_j88648124991293_1_alg».proof.Proof.Gen.KernelIdeal.Skeleton
import proofs.«105396_j88648124991293_1_alg».proof.Proof.Gen.KernelIdeal.Launch
import proofs.«105396_j88648124991293_1_alg».proof.Proof.Gen.KernelIdeal.Points
import proofs.«105396_j88648124991293_1_alg».proof.Proof.Gen.KernelIdeal.Frame
import proofs.«105396_j88648124991293_1_alg».proof.Proof.Gen.ReferenceIdeal
import proofs.«105396_j88648124991293_1_alg».proof.Proof.Gen.Pre_finite_inputs
import proofs.«105396_j88648124991293_1_alg».proof.Proof.Gen.ReferenceIdeal.Run
import proofs.«105396_j88648124991293_1_alg».proof.Proof.Gen.ReferenceIdeal.Read
import proofs.«105396_j88648124991293_1_alg».proof.Proof.RefMlp
import proofs.«105396_j88648124991293_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

open Cert.ReferenceIdeal.Read Cert.ReferenceIdeal.NodeUpdate in
/-- From memories that agree on the arguments both programs end with the head of the pooling of the updated nodes and
    with that pooling: the kernel program by its run read back, the reference because its updated nodes are the same
    node update of the same arrays. -/
theorem algebraic : Cert.algebraic_KernelIdeal_ReferenceIdeal := by
  intro m ρ m' ρ' _ hagree
  refine ⟨_, _, Cert.KernelIdeal.NodeUpdate.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (val_main_v56_eq (F := Ideal) _ _ _ _ _ _ _ _ _ _ _ _ _).trans ?_
    rw [v56_eq, v52_eq, ref_mlp, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    rfl
  · refine (val_main_v52_eq (F := Ideal) _ _ _ _ _ _ _ _ _ _ _).trans ?_
    rw [v52_eq, ref_mlp, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
